-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S10000x128 : Shape := ⟨2, ![10000, 128]⟩
abbrev S690000x128 : Shape := ⟨2, ![690000, 128]⟩
abbrev S1x128 : Shape := ⟨2, ![1, 128]⟩
abbrev S50000x64 : Shape := ⟨2, ![50000, 64]⟩
abbrev S10000x64 : Shape := ⟨2, ![10000, 64]⟩
abbrev S690000x64 : Shape := ⟨2, ![690000, 64]⟩
abbrev S1x64 : Shape := ⟨2, ![1, 64]⟩

abbrev nBuf : Space → Nat
  | .hbm => 91
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S690000, .f32⟩
  | .hbm, ⟨48, _⟩ => ⟨S50000x128, .f32⟩
  | .hbm, ⟨49, _⟩ => ⟨S_, .i32⟩
  | .hbm, ⟨50, _⟩ => ⟨S690000, .i32⟩
  | .hbm, ⟨51, _⟩ => ⟨S690000, .i1⟩
  | .hbm, ⟨52, _⟩ => ⟨S_, .i32⟩
  | .hbm, ⟨53, _⟩ => ⟨S690000, .i32⟩
  | .hbm, ⟨54, _⟩ => ⟨S690000, .i32⟩
  | .hbm, ⟨55, _⟩ => ⟨S690000, .i32⟩
  | .hbm, ⟨56, _⟩ => ⟨S690000x1, .i32⟩
  | .hbm, ⟨57, _⟩ => ⟨S690000x128, .f32⟩
  | .hbm, ⟨58, _⟩ => ⟨S690000x1, .f32⟩
  | .hbm, ⟨59, _⟩ => ⟨S690000x128, .f32⟩
  | .hbm, ⟨60, _⟩ => ⟨S690000x128, .f32⟩
  | .hbm, ⟨61, _⟩ => ⟨S_, .f32⟩
  | .hbm, ⟨62, _⟩ => ⟨S50000x128, .f32⟩
  | .hbm, ⟨63, _⟩ => ⟨S690000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S690000, .i32⟩
  | .hbm, ⟨74, _⟩ => ⟨S690000, .i1⟩
  | .hbm, ⟨75, _⟩ => ⟨S_, .i32⟩
  | .hbm, ⟨76, _⟩ => ⟨S690000, .i32⟩
  | .hbm, ⟨77, _⟩ => ⟨S690000, .i32⟩
  | .hbm, ⟨78, _⟩ => ⟨S690000, .i32⟩
  | .hbm, ⟨79, _⟩ => ⟨S690000x1, .i32⟩
  | .hbm, ⟨80, _⟩ => ⟨S690000x64, .f32⟩
  | .hbm, ⟨81, _⟩ => ⟨S690000x1, .f32⟩
  | .hbm, ⟨82, _⟩ => ⟨S690000x64, .f32⟩
  | .hbm, ⟨83, _⟩ => ⟨S690000x64, .f32⟩
  | .hbm, ⟨84, _⟩ => ⟨S_, .f32⟩
  | .hbm, ⟨85, _⟩ => ⟨S50000x64, .f32⟩
  | .hbm, ⟨86, _⟩ => ⟨S690000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S10000x128_S128x128_S10000x128_1_0_0_1_n_n_wf : DotDims.WF S10000x128 S128x128 S10000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S10000x128_S128x64_S10000x64_1_0_0_1_n_n_wf : DotDims.WF S10000x128 S128x64 S10000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x64 : Shape := ⟨2, ![50000, 64]⟩
abbrev S690000x64 : Shape := ⟨2, ![690000, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x64, .f32⟩
  | 5 => ⟨S64, .f32⟩
  | 6 => ⟨S50000x128, .f32⟩
  | 7 => ⟨S50000, .i32⟩
  | 8 => ⟨S1x640000, .i32⟩
  | 9 => ⟨S640000, .i32⟩
  | 10 => ⟨S690000, .i32⟩
  | 11 => ⟨S1x640000, .i32⟩
  | 12 => ⟨S640000, .i32⟩
  | 13 => ⟨S690000, .i32⟩
  | 14 => ⟨S_, .f32⟩
  | 15 => ⟨S690000, .f32⟩
  | 16 => ⟨S_, .f32⟩
  | 17 => ⟨S50000, .f32⟩
  | 18 => ⟨S690000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S690000, .i32⟩
  | 32 => ⟨S690000, .i1⟩
  | 33 => ⟨S_, .i32⟩
  | 34 => ⟨S690000, .i32⟩
  | 35 => ⟨S690000, .i32⟩
  | 36 => ⟨S690000, .i32⟩
  | 37 => ⟨S690000x1, .i32⟩
  | 38 => ⟨S690000, .f32⟩
  | 39 => ⟨S_, .i32⟩
  | 40 => ⟨S690000, .i32⟩
  | 41 => ⟨S690000, .i1⟩
  | 42 => ⟨S_, .i32⟩
  | 43 => ⟨S690000, .i32⟩
  | 44 => ⟨S690000, .i32⟩
  | 45 => ⟨S690000, .i32⟩
  | 46 => ⟨S690000x1, .i32⟩
  | 47 => ⟨S690000, .f32⟩
  | 48 => ⟨S690000, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x128, .f32⟩
  | 58 => ⟨S690000x1, .f32⟩
  | 59 => ⟨S690000x128, .f32⟩
  | 60 => ⟨S690000x128, .f32⟩
  | 61 => ⟨S_, .f32⟩
  | 62 => ⟨S50000x128, .f32⟩
  | 63 => ⟨S690000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S50000, .i32⟩
  | 73 => ⟨S1x640000, .i32⟩
  | 74 => ⟨S640000, .i32⟩
  | 75 => ⟨S690000, .i32⟩
  | 76 => ⟨S1x640000, .i32⟩
  | 77 => ⟨S640000, .i32⟩
  | 78 => ⟨S690000, .i32⟩
  | 79 => ⟨S_, .f32⟩
  | 80 => ⟨S690000, .f32⟩
  | 81 => ⟨S_, .f32⟩
  | 82 => ⟨S50000, .f32⟩
  | 83 => ⟨S690000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S690000, .i32⟩
  | 97 => ⟨S690000, .i1⟩
  | 98 => ⟨S_, .i32⟩
  | 99 => ⟨S690000, .i32⟩
  | 100 => ⟨S690000, .i32⟩
  | 101 => ⟨S690000, .i32⟩
  | 102 => ⟨S690000x1, .i32⟩
  | 103 => ⟨S690000, .f32⟩
  | 104 => ⟨S_, .i32⟩
  | 105 => ⟨S690000, .i32⟩
  | 106 => ⟨S690000, .i1⟩
  | 107 => ⟨S_, .i32⟩
  | 108 => ⟨S690000, .i32⟩
  | 109 => ⟨S690000, .i32⟩
  | 110 => ⟨S690000, .i32⟩
  | 111 => ⟨S690000x1, .i32⟩
  | 112 => ⟨S690000, .f32⟩
  | 113 => ⟨S690000, .f32⟩
  | 114 => ⟨S_, .i32⟩
  | 115 => ⟨S690000, .i32⟩
  | 116 => ⟨S690000, .i1⟩
  | 117 => ⟨S_, .i32⟩
  | 118 => ⟨S690000, .i32⟩
  | 119 => ⟨S690000, .i32⟩
  | 120 => ⟨S690000, .i32⟩
  | 121 => ⟨S690000x1, .i32⟩
  | 122 => ⟨S690000x64, .f32⟩
  | 123 => ⟨S690000x1, .f32⟩
  | 124 => ⟨S690000x64, .f32⟩
  | 125 => ⟨S690000x64, .f32⟩
  | 126 => ⟨S_, .f32⟩
  | 127 => ⟨S50000x64, .f32⟩
  | _ => ⟨S50000x128, .f32⟩

abbrev hbmTy0_1 (i : Nat) : BufTy := match i % 128 with
  | 0 => ⟨S690000x1, .i32⟩
  | 1 => ⟨S50000x64, .f32⟩
  | 2 => ⟨S1x64, .f32⟩
  | 3 => ⟨S50000x64, .f32⟩
  | 4 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x64_S50000x64_1_0_0_1_n_n_wf : DotDims.WF S50000x128 S128x64 S50000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf

class Facts : Prop extends Facts₀ where

variable [Facts]
-- ==== Proof.KernelRun.lean ====
/-
  The idealized kernel's run with its result named.

  The program is eight segments in order: three stretches of host operations, the first matrix product's
  pipeline, two stretches, the second product's pipeline, one last stretch. The contents of every buffer are
  followed through these segments as a fold `W0 … W8` from the launch memory: a stretch applies its operations
  in order, a pipeline replaces its output array by what its write-backs leave and keeps everything else. Every
  weakly fair execution terminates with every unscoped buffer at `W8`; read at the result buffer and at the six
  argument buffers, that is the statement below.
-/
import proofs.«138241_j36928128811252_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the six
    argument arrays as launched. -/
theorem run_result : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.BlockProduct.lean ====
/-
  What each kernel body stores, at an index.

  Both bodies load a [10000, 128] block of rows and the whole weight matrix, multiply them on the matrix unit
  into a zero accumulator, and store the product over the output block. Over the extended reals the product at
  (r, c) is the plain sum over k of block[r, k] · weight[k, c]: the accumulator's zero adds nothing and the order
  of the 128 terms is immaterial.
-/
import proofs.«138241_j36928128811252_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-! ## Product 0: a [10000, 128] row block times the whole weight matrix -/

/-- At output index `y` and contraction index `k` the left operand is read at (y₀, k) -/
abbrev rowAt0 (y : S10000x128.Idx) (k : Fin 128) : S10000x128.Idx := fun a => match a with
  | ⟨0, _⟩ => ⟨(y 0).val, (y 0).isLt⟩
  | ⟨1, _⟩ => ⟨k.val, k.isLt⟩
/-- and the right operand at (k, y₁). -/
abbrev colAt0 (y : S10000x128.Idx) (k : Fin 128) : S128x128.Idx := fun a => match a with
  | ⟨0, _⟩ => ⟨k.val, k.isLt⟩
  | ⟨1, _⟩ => ⟨(y 1).val, (y 1).isLt⟩

theorem lhs0_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs0_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs0_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs0_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix unit's product into a zero accumulator, at an index: the sum over the contracted axis of the
    left block's row entry times the weight's column entry. -/
theorem dot0_apply (l : FVec Ideal S10000x128 .f32) (r : FVec Ideal S128x128 .f32) (y : S10000x128.Idx) :
    matmul dot_S10000x128_S128x128_S10000x128_1_0_0_1_n_n none l r (constant S10000x128 .f32 0x00000000#32) y = ∑ k : Fin 128, l (rowAt0 y k) * r (colAt0 y k) := by
  refine (Ideal.matmul_constant_zero_apply dot_S10000x128_S128x128_S10000x128_1_0_0_1_n_n none l r y).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx y ((ValueIdx.contrEquiv1 dot_S10000x128_S128x128_S10000x128_1_0_0_1_n_n 128 rfl rfl).symm k) = rowAt0 y k := funext fun a => Fin.ext (by
    match a with
    | ⟨0, _⟩ => exact lhs0_0 _ _
    | ⟨1, _⟩ => exact (lhs0_1 _ _).trans hk)
  have er : dot_S10000x128_S128x128_S10000x128_1_0_0_1_n_n.rhsIdx y ((ValueIdx.contrEquiv1 dot_S10000x128_S128x128_S10000x128_1_0_0_1_n_n 128 rfl rfl).symm k) = colAt0 y k := funext fun a => Fin.ext (by
    match a with
    | ⟨0, _⟩ => exact (rhs0_0 _ _).trans hk
    | ⟨1, _⟩ => exact rhs0_1 _ _)
  rw [el, er]

/-- The first body's stored value at an index. -/
theorem pay0_apply (x0 : Vec Ideal S10000x128 .f32) (x1 : Vec Ideal S128x128 .f32) (y : S10000x128.Idx) :
    k0_pay1 (F := Ideal) x0 x1 y = ∑ k : Fin 128, x0 (rowAt0 y k) * x1 (colAt0 y k) := by
  unfold k0_pay1
  exact dot0_apply x0 x1 y

/-! ## Product 1: a [10000, 128] row block times the whole weight matrix -/

/-- At output index `y` and contraction index `k` the left operand is read at (y₀, k) -/
abbrev rowAt1 (y : S10000x64.Idx) (k : Fin 128) : S10000x128.Idx := fun a => match a with
  | ⟨0, _⟩ => ⟨(y 0).val, (y 0).isLt⟩
  | ⟨1, _⟩ => ⟨k.val, k.isLt⟩
/-- and the right operand at (k, y₁). -/
abbrev colAt1 (y : S10000x64.Idx) (k : Fin 128) : S128x64.Idx := fun a => match a with
  | ⟨0, _⟩ => ⟨k.val, k.isLt⟩
  | ⟨1, _⟩ => ⟨(y 1).val, (y 1).isLt⟩

theorem lhs1_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs1_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs1_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The matrix unit's product into a zero accumulator, at an index: the sum over the contracted axis of the
    left block's row entry times the weight's column entry. -/
theorem dot1_apply (l : FVec Ideal S10000x128 .f32) (r : FVec Ideal S128x64 .f32) (y : S10000x64.Idx) :
    matmul dot_S10000x128_S128x64_S10000x64_1_0_0_1_n_n none l r (constant S10000x64 .f32 0x00000000#32) y = ∑ k : Fin 128, l (rowAt1 y k) * r (colAt1 y k) := by
  refine (Ideal.matmul_constant_zero_apply dot_S10000x128_S128x64_S10000x64_1_0_0_1_n_n none l r y).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = rowAt1 y k := funext fun a => Fin.ext (by
    match a with
    | ⟨0, _⟩ => exact lhs1_0 _ _
    | ⟨1, _⟩ => exact (lhs1_1 _ _).trans hk)
  have er : dot_S10000x128_S128x64_S10000x64_1_0_0_1_n_n.rhsIdx y ((ValueIdx.contrEquiv1 dot_S10000x128_S128x64_S10000x64_1_0_0_1_n_n 128 rfl rfl).symm k) = colAt1 y k := funext fun a => Fin.ext (by
    match a with
    | ⟨0, _⟩ => exact (rhs1_0 _ _).trans hk
    | ⟨1, _⟩ => exact rhs1_1 _ _)
  rw [el, er]

/-- The second body's stored value at an index (its cast of the row block to its own shape changes nothing). -/
theorem pay1_apply (x0 : Vec Ideal S10000x128 .f32) (x1 : Vec Ideal S128x64 .f32) (y : S10000x64.Idx) :
    k1_pay1 (F := Ideal) x0 x1 y = ∑ k : Fin 128, x0 (rowAt1 y k) * x1 (colAt1 y k) := by
  unfold k1_pay1
  rw [show shapeCast S10000x128 x0 shapeCasts_S10000x128_S10000x128 = x0 from shapeCast_self x0 _]
  exact dot1_apply x0 x1 y

end Cert.KernelIdeal.BlockProduct

end
-- ==== Proof.RegionArrays.lean ====
/-
  Each region's output array, whole.

  A region is entered with some contents `V` of the buffers. Its pipeline visits five grid points; at point t it
  fetches rows 10000·t … 10000·t + 9999 of the left array and the whole weight matrix, runs the body, and writes
  the body's [10000, ·] product back over the same rows of the output array. Each written block is therefore the
  matching block of ONE function of the entry arrays — the whole matrix product — and the five blocks tile the
  output, so after the pipeline the output array is that product.
-/
import proofs.«138241_j36928128811252_1_alg».proof.Proof.Gen.KernelIdeal.Frame
import proofs.«138241_j36928128811252_1_alg».proof.Proof.BlockProduct

set_option maxRecDepth 16384

noncomputable section

namespace Cert.KernelIdeal.RegionArrays

open Cert.KernelIdeal Cert.KernelIdeal.Gen Cert.KernelIdeal.BlockProduct
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- At index `i` of the product and contraction index `k` the left array is read at (i₀, k) -/
abbrev rowOf0 (i : S50000x128.Idx) (k : Fin 128) : S50000x128.Idx := fun a => match a with
  | ⟨0, _⟩ => ⟨(i 0).val, (i 0).isLt⟩
  | ⟨1, _⟩ => ⟨k.val, k.isLt⟩
/-- and the weight matrix at (k, i₁). -/
abbrev colOf0 (i : S50000x128.Idx) (k : Fin 128) : S128x128.Idx := fun a => match a with
  | ⟨0, _⟩ => ⟨k.val, k.isLt⟩
  | ⟨1, _⟩ => ⟨(i 1).val, (i 1).isLt⟩

/-- The whole product: entry (r, c) is the sum over k of x[r, k] · w[k, c]. -/
def prod0 (x : S50000x128.Idx → EReal) (w : S128x128.Idx → EReal) : S50000x128.Idx → EReal :=
  fun i => ∑ k : Fin 128, x (rowOf0 i k) * w (colOf0 i k)

/-- The printed index maps over the five grid points: the row blocks of the left operand and of the output move
    together, every other block index is zero. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 4 ∧ win0_2.index t (1 : Fin 2) = 0 :=
  (by decide +kernel : ∀ t : Fin grid0.N, _)

/-- Every one of the five row blocks of the output is some grid point's. -/
theorem idx_onto0 : ∀ q : Fin 5, ∃ t : Fin cfg0.N, win0_2.index t = ![q.val, 0] :=
  (by decide +kernel : ∀ q : Fin 5, ∃ t : Fin grid0.N, win0_2.index t = ![q.val, 0])

/-- What grid point `t` writes back is block `t` of the whole product of the arrays the region was entered with:
    row r of the block is row 10000·t + r of the left array, and the weight matrix is read whole. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext j
  refine (pay0_apply (iblk0 V c 0 t) (iblk0 V c 1 t) j).trans ?_
  let X : S50000x128.Idx → EReal := V c main_arg0
  let Y : S128x128.Idx → EReal := V c main_arg2
  show ∑ k : Fin 128, X (((cfg0.win 0).blk t).view.emb (rowAt0 j k)) * Y (((cfg0.win 1).blk t).view.emb (colAt0 j k))
    = ∑ k : Fin 128, X (rowOf0 (((cfg0.win 2).blk t).view.emb j) k) * Y (colOf0 (((cfg0.win 2).blk t).view.emb j) k)
  refine Finset.sum_congr rfl fun k _ => ?_
  have h0 : ((cfg0.win 0).blk t).view.emb (rowAt0 j k) = rowOf0 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (colAt0 j k) = colOf0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The five row blocks tile the output array: row r is in block r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the pipeline the output array is the whole product of the arrays the region was entered with. -/
theorem array0 (c : Dev nD) : (dat0 V c).arrAt 2 cfg0.N = prod0 (V c main_arg0) (V c main_arg2) :=
  (dat0 V c).arrAt_eq_of_cover 2 (prod0 (V c main_arg0) (V c main_arg2)) (fun t _ => flushed0_eq V c t) (cover0)

/-! ## Region 1 -/

/-- At index `i` of the product and contraction index `k` the left array is read at (i₀, k) -/
abbrev rowOf1 (i : S50000x64.Idx) (k : Fin 128) : S50000x128.Idx := fun a => match a with
  | ⟨0, _⟩ => ⟨(i 0).val, (i 0).isLt⟩
  | ⟨1, _⟩ => ⟨k.val, k.isLt⟩
/-- and the weight matrix at (k, i₁). -/
abbrev colOf1 (i : S50000x64.Idx) (k : Fin 128) : S128x64.Idx := fun a => match a with
  | ⟨0, _⟩ => ⟨k.val, k.isLt⟩
  | ⟨1, _⟩ => ⟨(i 1).val, (i 1).isLt⟩

/-- The whole product: entry (r, c) is the sum over k of x[r, k] · w[k, c]. -/
def prod1 (x : S50000x128.Idx → EReal) (w : S128x64.Idx → EReal) : S50000x64.Idx → EReal :=
  fun i => ∑ k : Fin 128, x (rowOf1 i k) * w (colOf1 i k)

/-- The printed index maps over the five grid points: the row blocks of the left operand and of the output move
    together, every other block index is zero. -/
theorem idx_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) ≤ 4 ∧ win1_2.index t (1 : Fin 2) = 0 :=
  (by decide +kernel : ∀ t : Fin grid1.N, _)

/-- Every one of the five row blocks of the output is some grid point's. -/
theorem idx_onto1 : ∀ q : Fin 5, ∃ t : Fin cfg1.N, win1_2.index t = ![q.val, 0] :=
  (by decide +kernel : ∀ q : Fin 5, ∃ t : Fin grid1.N, win1_2.index t = ![q.val, 0])

/-- What grid point `t` writes back is block `t` of the whole product of the arrays the region was entered with:
    row r of the block is row 10000·t + r of the left array, and the weight matrix is read whole. -/
theorem flushed1_eq (c : Dev nD) (t : Fin cfg1.N) :
    (dat1 V c).flushed 2 t = ((cfg1.win 2).blk t).view.read (Elt Ideal) (prod1 (V c main_v48) (V c main_arg4)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4, e5⟩ := idx_facts1 t
  funext j
  refine (pay1_apply (iblk1 V c 0 t) (iblk1 V c 1 t) j).trans ?_
  let X : S50000x128.Idx → EReal := V c main_v48
  let Y : S128x64.Idx → EReal := V c main_arg4
  show ∑ k : Fin 128, X (((cfg1.win 0).blk t).view.emb (rowAt1 j k)) * Y (((cfg1.win 1).blk t).view.emb (colAt1 j k))
    = ∑ k : Fin 128, X (rowOf1 (((cfg1.win 2).blk t).view.emb j) k) * Y (colOf1 (((cfg1.win 2).blk t).view.emb j) k)
  refine Finset.sum_congr rfl fun k _ => ?_
  have h0 : ((cfg1.win 0).blk t).view.emb (rowAt1 j k) = rowOf1 (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ((cfg1.win 1).blk t).view.emb (colAt1 j k) = colOf1 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [h0, h1]

/-- An index of the output array is in point `t`'s block iff each coordinate is in the block's range on its axis. -/
theorem mem_blk1 (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The five row blocks tile the output array: row r is in block r / 10000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the pipeline the output array is the whole product of the arrays the region was entered with. -/
theorem array1 (c : Dev nD) : (dat1 V c).arrAt 2 cfg1.N = prod1 (V c main_v48) (V c main_arg4) :=
  (dat1 V c).arrAt_eq_of_cover 2 (prod1 (V c main_v48) (V c main_arg4)) (fun t _ => flushed1_eq V c t) (cover1)

end Cert.KernelIdeal.RegionArrays

end
-- ==== Proof.Stages.lean ====
/-
  The kernel's result array as a function of the six argument arrays.

  The fold of buffer contents through the program's eight segments is read one boundary at a time, each needed
  buffer in terms of the previous boundary's:
    * before the first product: the source and destination node lists (the edge list with one self loop per node
      appended) and the per-edge weight d(src)^(-1/2) · d(dst)^(-1/2), all functions of the edge list alone;
    * the first product's pipeline leaves x · W1 whole (RegionArrays);
    * then gather rows by source, scale by the edge weight, scatter-add by destination, add the bias, clamp at
      zero;
    * the second product's pipeline leaves that · W2 whole;
    * then the same gather / scale / scatter-add and the second bias.
  The reference performs the same host operations in the same order on the same values, with each product a
  whole `dot_general`, and computes the node lists and edge weights a second time for the second layer. Its
  stages are the generated `val_main_vN`; every boundary value of the kernel is identified with the stage that
  computes the same thing, the two matrix products by the index-by-index sum, everything else by unfolding.
-/
import proofs.«138241_j36928128811252_1_alg».proof.Proof.Gen.KernelIdeal.Frame
import proofs.«138241_j36928128811252_1_alg».proof.Proof.RegionArrays
import proofs.«138241_j36928128811252_1_alg».proof.Proof.RefRead

set_option maxRecDepth 16384

noncomputable section

namespace Cert.KernelIdeal.Stages

open Cert.KernelIdeal Cert.KernelIdeal.Gen Cert.KernelIdeal.RegionArrays
open Idealize.ShloMosaic Idealize.ShloMosaic.TcCoe Idealize.SL.Sem Idealize.ShloMosaic.StableHlo

/-- Reading a buffer through a stretch of host operations, one operation at a time: an operation's result at its own
    buffer is its function's value of its operands' contents, and at any other buffer what was there before. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The two outlined calls, each over arbitrary contents -/

section Calls

variable {F : FTy → Type} [FloatOps F] (V : Valuation τ sig (Elt F))

/-- `jnp.where(deg > 0, deg ** -0.5, 0.0)`: the call writes the selection of its second operand where the first holds and
    of the broadcast third operand elsewhere. -/
theorem where_result :
    StableHlo.after hostOps0_1 V (Proc.devRef .tc main_v15)
      = select (V (Proc.devRef .tc main_v12)) (V (Proc.devRef .tc main_v14))
          (broadcastInDim S50000 ![] bcast_S_S50000 (id (V (Proc.devRef .tc main_cst_3)))) := by
  simp only [hostOps0_1]
  after_results_simp
  rfl

/-- The call writes its own three buffers only. -/
theorem where_keeps (r : Ref sig .tc) (h0 : r ≠ main_call0_v0) (h1 : r ≠ main_call0_v1) (h2 : r ≠ main_v15) :
    StableHlo.after hostOps0_1 V (Proc.devRef .tc r) = V (Proc.devRef .tc r) := by
  simp only [hostOps0_1, after_cons, after_nil]
  rw [ternary_result_ne _ _ _ _ _ _ _ _ _ _ h2, unary_result_ne _ _ _ _ _ _ h1, unary_result_ne _ _ _ _ _ _ h0]

/-- `relu`: the call writes the maximum of its operand and the broadcast zero. -/
theorem relu_result :
    StableHlo.after hostOps1_1 V (Proc.devRef .tc main_v48)
      = maximumf (V (Proc.devRef .tc main_v47)) (broadcastInDim S50000x128 ![] bcast_S_S50000x128 (constant S_ .f32 0x00000000#32)) := by
  simp only [hostOps1_1]
  after_results_simp
  rfl

/-- The call writes its own three buffers only. -/
theorem relu_keeps (r : Ref sig .tc) (h0 : r ≠ main_call1_cst) (h1 : r ≠ main_call1_v0) (h2 : r ≠ main_v48) :
    StableHlo.after hostOps1_1 V (Proc.devRef .tc r) = V (Proc.devRef .tc r) := by
  simp only [hostOps1_1, after_cons, after_nil]
  rw [binary_result_ne _ _ _ _ _ _ _ _ h2, unary_result_ne _ _ _ _ _ _ h1, nullary_result_ne _ _ _ _ h0]

end Calls

variable (m : (ℓ : Loc nD τ sig) → Buf (Elt Ideal) ℓ) (ρ : Dev nD → PrngReg)

/-! ## The two products are the reference's -/

/-- The reference's first `dot_general` is the whole product x · W1. -/
theorem ref_prod0 (x : S50000x128.Idx → EReal) (w : S128x128.Idx → EReal) :
    Cert.ReferenceIdeal.ReadP.val_main_v0 (F := Ideal) x w = prod0 x w :=
  funext fun i => Cert.ReferenceIdeal.ReadP.val_main_v0_apply x w i

/-- The reference's second `dot_general`, of its first layer's output, is the whole product of that output with W2. -/
theorem ref_prod1 (x0 : S50000x128.Idx → EReal) (x1 : (⟨S2x640000, .i32⟩ : BufTy).Contents (Elt Ideal)) (x2 : S128x128.Idx → EReal)
    (x3 : S128.Idx → EReal) (x4 : S128x64.Idx → EReal) :
    Cert.ReferenceIdeal.ReadP.val_main_v49 (F := Ideal) x0 x1 x2 x3 x4 = prod1 (Cert.ReferenceIdeal.ReadP.val_main_v48 (F := Ideal) x0 x1 x2 x3) x4 :=
  funext fun i => Cert.ReferenceIdeal.ReadP.val_main_v49_apply x0 x1 x2 x3 x4 i

/-! ## Before the first product -/

section Boundary3

theorem W3_arg (r : Ref sig .tc) (hr : r = main_arg0 ∨ r = main_arg1 ∨ r = main_arg2 ∨ r = main_arg3 ∨ r = main_arg4 ∨ r = main_arg5) (c : Dev nD) :
    W3 m ρ c (Proc.devRef .tc r) = m ((c : Thread nD τ).loc r) := by
  show StableHlo.after hostOps0_2 (StableHlo.after hostOps0_1 (StableHlo.after hostOps0 (W0 m ρ c))) (Proc.devRef .tc r) = _
  rcases hr with rfl | rfl | rfl | rfl | rfl | rfl <;>
  · simp only [hostOps0, hostOps0_1, hostOps0_2]
    after_results_simp

/-- The source node of every edge, self loops appended. -/
theorem W3_v3 (c : Dev nD) : W3 m ρ c (Proc.devRef .tc main_v3) = Cert.ReferenceIdeal.ReadP.val_main_v4 (F := Ideal) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  results_rw
  rfl

/-- The destination node of every edge, self loops appended. -/
theorem W3_v6 (c : Dev nD) : W3 m ρ c (Proc.devRef .tc main_v6) = Cert.ReferenceIdeal.ReadP.val_main_v7 (F := Ideal) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  results_rw
  rfl

/-- The weight of every edge: the inverse square roots of its two endpoints' degrees, multiplied. -/
theorem W3_v30 (c : Dev nD) : W3 m ρ c (Proc.devRef .tc main_v30) = Cert.ReferenceIdeal.ReadP.val_main_v31 (F := Ideal) (m ((c : Thread nD τ).loc main_arg1)) := by
  show StableHlo.after hostOps0_2 (StableHlo.after hostOps0_1 (StableHlo.after hostOps0 (W0 m ρ c))) (Proc.devRef .tc main_v30) = _
  generalize hX : StableHlo.after hostOps0_1 (StableHlo.after hostOps0 (W0 m ρ c)) = X
  simp only [hostOps0_2]
  after_results_simp
  subst hX
  rw [where_result, where_keeps _ main_v3 (by decide) (by decide) (by decide), where_keeps _ main_v6 (by decide) (by decide) (by decide)]
  simp only [hostOps0]
  after_results_simp
  results_rw
  rfl

end Boundary3

/-! ## After the first product -/

/-- The first pipeline leaves x · W1, the reference's first `dot_general`. -/
theorem W4_v31 (c : Dev nD) : W4 m ρ c (Proc.devRef .tc main_v31)
    = Cert.ReferenceIdeal.ReadP.val_main_v0 (F := Ideal) (m ((c : Thread nD τ).loc main_arg0)) (m ((c : Thread nD τ).loc main_arg2)) := by
  refine (W4_arr m ρ c 2).trans ?_
  rw [array0 (V3 m ρ) c]
  show prod0 (W3 m ρ c (Proc.devRef .tc main_arg0)) (W3 m ρ c (Proc.devRef .tc main_arg2)) = _
  rw [W3_arg m ρ main_arg0 (.inl rfl) c, W3_arg m ρ main_arg2 (.inr (.inr (.inl rfl))) c]
  exact (ref_prod0 _ _).symm

theorem W4_keep (r : Ref sig .tc) (hr : ∀ w, Pipeline.arrRef spec0 w ≠ r) (c : Dev nD) :
    W4 m ρ c (Proc.devRef .tc r) = W3 m ρ c (Proc.devRef .tc r) := W4_of_ne m ρ c r hr

/-! ## Before the second product -/

theorem W6_v3 (c : Dev nD) : W6 m ρ c (Proc.devRef .tc main_v3) = W4 m ρ c (Proc.devRef .tc main_v3) := by
  show StableHlo.after hostOps1_1 (StableHlo.after hostOps1 (W4 m ρ c)) (Proc.devRef .tc main_v3) = _
  simp only [hostOps1, hostOps1_1]
  after_results_simp
theorem W6_v6 (c : Dev nD) : W6 m ρ c (Proc.devRef .tc main_v6) = W4 m ρ c (Proc.devRef .tc main_v6) := by
  show StableHlo.after hostOps1_1 (StableHlo.after hostOps1 (W4 m ρ c)) (Proc.devRef .tc main_v6) = _
  simp only [hostOps1, hostOps1_1]
  after_results_simp
theorem W6_v30 (c : Dev nD) : W6 m ρ c (Proc.devRef .tc main_v30) = W4 m ρ c (Proc.devRef .tc main_v30) := by
  show StableHlo.after hostOps1_1 (StableHlo.after hostOps1 (W4 m ρ c)) (Proc.devRef .tc main_v30) = _
  simp only [hostOps1, hostOps1_1]
  after_results_simp
theorem W6_arg4 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  simp only [hostOps1, hostOps1_1]
  after_results_simp
theorem W6_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  simp only [hostOps1, hostOps1_1]
  after_results_simp

/-- The first layer's output: rows of x · W1 gathered by source, scaled by the edge weight, summed by destination,
    plus the bias, clamped at zero — the reference's stage of the same name. -/
theorem W6_v48 (c : Dev nD) : W6 m ρ c (Proc.devRef .tc main_v48)
    = Cert.ReferenceIdeal.ReadP.val_main_v48 (F := Ideal) (m ((c : Thread nD τ).loc main_arg0)) (m ((c : Thread nD τ).loc main_arg1))
        (m ((c : Thread nD τ).loc main_arg2)) (m ((c : Thread nD τ).loc main_arg3)) := by
  show StableHlo.after hostOps1_1 (StableHlo.after hostOps1 (W4 m ρ c)) (Proc.devRef .tc main_v48) = _
  rw [relu_result]
  simp only [hostOps1]
  after_results_simp
  rw [W4_v31 m ρ c, W4_keep m ρ main_v3 (by decide) c, W4_keep m ρ main_v6 (by decide) c, W4_keep m ρ main_v30 (by decide) c,
    W4_keep m ρ main_arg3 (by decide) c, W3_v3 m ρ c, W3_v6 m ρ c, W3_v30 m ρ c, W3_arg m ρ main_arg3 (.inr (.inr (.inr (.inl rfl)))) c]
  rfl

/-! ## After the second product -/

/-- The second pipeline leaves (first layer's output) · W2, the reference's second `dot_general`. -/
theorem W7_v49 (c : Dev nD) : W7 m ρ c (Proc.devRef .tc main_v49)
    = Cert.ReferenceIdeal.ReadP.val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W7_arr m ρ c 2).trans ?_
  rw [array1 (V6 m ρ) c]
  show prod1 (W6 m ρ c (Proc.devRef .tc main_v48)) (W6 m ρ c (Proc.devRef .tc main_arg4)) = _
  rw [W6_v48 m ρ c, W6_arg4 m ρ c, W4_keep m ρ main_arg4 (by decide) c, W3_arg m ρ main_arg4 (.inr (.inr (.inr (.inr (.inl rfl))))) c]
  exact (ref_prod1 _ _ _ _ _).symm

theorem W7_keep (r : Ref sig .tc) (hr : ∀ w, Pipeline.arrRef spec1 w ≠ r) (c : Dev nD) :
    W7 m ρ c (Proc.devRef .tc r) = W6 m ρ c (Proc.devRef .tc r) := W7_of_ne m ρ c r hr

/-! ## The result -/

/-- The result array is the reference's last stage of the six argument arrays. -/
theorem W8_v65 (c : Dev nD) : W8 m ρ c (Proc.devRef .tc main_v65)
    = Cert.ReferenceIdeal.ReadP.val_main_v96 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  show StableHlo.after hostOps2 (W7 m ρ c) (Proc.devRef .tc main_v65) = _
  simp only [hostOps2]
  after_results_simp
  rw [W7_v49 m ρ c, W7_keep m ρ main_v3 (by decide) c, W7_keep m ρ main_v6 (by decide) c, W7_keep m ρ main_v30 (by decide) c,
    W7_keep m ρ main_arg5 (by decide) c, W6_v3 m ρ c, W6_v6 m ρ c, W6_v30 m ρ c, W6_arg5 m ρ c,
    W4_keep m ρ main_v3 (by decide) c, W4_keep m ρ main_v6 (by decide) c, W4_keep m ρ main_v30 (by decide) c, W4_keep m ρ main_arg5 (by decide) c,
    W3_v3 m ρ c, W3_v6 m ρ c, W3_v30 m ρ c, W3_arg m ρ main_arg5 (.inr (.inr (.inr (.inr (.inr rfl))))) c]
  rfl

end Cert.KernelIdeal.Stages

end
-- ==== Proof.lean ====
/-
  A two-layer graph convolution: the kernel computes it with its two dense products x · W1 and h · W2 as
  row-tiled matrix-unit pipelines (five blocks of 10000 rows each, the weight matrix whole), everything else —
  node lists with self loops, degrees, the per-edge weight d(src)^(-1/2) · d(dst)^(-1/2), gather by source,
  scatter-add by destination, bias, clamp at zero — as host operations; the reference computes the same with
  each product one whole `dot_general`, and recomputes node lists and edge weights for the second layer.

  Over the extended reals the two programs end with the same result array, index by index:
    * a row-tiled product into a zero accumulator, written back block by block, is the whole product
      (entry (r, c) = Σₖ x[r, k] · W[k, c] on both sides; the five row blocks tile the output);
    * every other operation is the same operation applied to values already shown equal, and the reference's
      second computation of node lists and edge weights is the same function of the edge list as its first.
  No algebraic law that could fail at an infinity is used, so the finiteness of the inputs is never opened.

  The three frames are the generated ones (the reference's is its run with the result dropped); the idealization
  rewrote nothing, so `preserves` is `True`.
-/
import proofs.«138241_j36928128811252_1_alg».proof.Defs
import proofs.«138241_j36928128811252_1_alg».proof.Proof.Gen.Kernel
import proofs.«138241_j36928128811252_1_alg».proof.Proof.Gen.Kernel.Frame
import proofs.«138241_j36928128811252_1_alg».proof.Proof.Gen.KernelIdeal
import proofs.«138241_j36928128811252_1_alg».proof.Proof.Gen.KernelIdeal.Frame
import proofs.«138241_j36928128811252_1_alg».proof.Proof.Gen.ReferenceIdeal
import proofs.«138241_j36928128811252_1_alg».proof.Proof.Gen.Pre_finite_inputs
import proofs.«138241_j36928128811252_1_alg».proof.Proof.KernelRun
import proofs.«138241_j36928128811252_1_alg».proof.Proof.Stages
import proofs.«138241_j36928128811252_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no pipeline: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the (agreeing) argument arrays as their result. -/
theorem algebraic : Cert.algebraic_KernelIdeal_ReferenceIdeal := by
  intro m ρ m' ρ' _ hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.W8_v65 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v96_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
